-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel

variable [Facts]

def fn {F : FTy → Type} [FloatOps F] (main_arg0 : FVec F S8192x256 .f32) (main_arg1 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  main_v8
-- ==== Kernel.lean ====
abbrev S8192x256 : Shape := ⟨2, ![8192, 256]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S1024x256 : Shape := ⟨2, ![1024, 256]⟩
abbrev S1024x1 : Shape := ⟨2, ![1024, 1]⟩
abbrev S1x1024 : Shape := ⟨2, ![1, 1024]⟩
abbrev S1024x1024 : Shape := ⟨2, ![1024, 1024]⟩

abbrev nBuf : Space → Nat
  | .hbm => 16
  | .vmem => 9
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S_, .f32⟩
  | .hbm, ⟨3, _⟩ => ⟨S8192x256, .f32⟩
  | .hbm, ⟨4, _⟩ => ⟨S8192x256, .f32⟩
  | .hbm, ⟨5, _⟩ => ⟨S8192x256, .bf16⟩
  | .hbm, ⟨6, _⟩ => ⟨S8192x256, .bf16⟩
  | .hbm, ⟨7, _⟩ => ⟨S8192x256, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S8192x256, .f32⟩
  | .hbm, ⟨12, _⟩ => ⟨S_, .f32⟩
  | .hbm, ⟨13, _⟩ => ⟨S8192, .f32⟩
  | .hbm, ⟨14, _⟩ => ⟨S1x8192, .f32⟩
  | .hbm, ⟨15, _⟩ => ⟨S8192x8192, .f32⟩
  | .local _ .vmem, ⟨0, _⟩ => ⟨S1024x256, .bf16⟩
  | .local _ .vmem, ⟨1, _⟩ => ⟨S1024x256, .bf16⟩
  | .local _ .vmem, ⟨2, _⟩ => ⟨S8192x256, .bf16⟩
  | .local _ .vmem, ⟨3, _⟩ => ⟨S1024x1, .f32⟩
  | .local _ .vmem, ⟨4, _⟩ => ⟨S1024x1, .f32⟩
  | .local _ .vmem, ⟨5, _⟩ => ⟨S1x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 8], ![false, false]⟩

def k0_mult1 (i : grid0.Coords) : BitVec 32 :=
  let arg1 : BitVec 32 := BitVec.ofNat 32 (i 1).val
  let c1024_i32 : BitVec 32 := 1024#32
  let v0 : BitVec 32 := Scalar.muli arg1 c1024_i32
  v0
def k0_off1 (i : grid0.Coords) : Fin 2 → Nat :=
  let arg1 : BitVec 32 := BitVec.ofNat 32 (i 1).val
  let c1024_i32 : BitVec 32 := 1024#32
  let v0 : BitVec 32 := Scalar.muli arg1 c1024_i32
  let v1 : BitVec 32 := v0
  let v2 : Index := Scalar.indexCast v1
  let c0 : Index := 0#32
  ![v2.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S8192x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bcast_S_S8192x256 : S_.BroadcastsInDim S8192x256 (![] : Fin 0 → Fin S8192x256.rank)
  bitsLt_bf16_f32 : FTy.bits .bf16 < FTy.bits .f32
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  h_S1024x256 : 0 < S1024x256.numel
  shapeCasts_S1024x256_S1024x256 : S1024x256.ShapeCasts S1024x256
  inb_S1024x256_S1024x256_0_0 : ∀ a, (![0, 0] : Fin 2 → Nat) a + S1024x256.size a ≤ S1024x256.size a
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x256_S1024x256_S1024x1024_1_1_0_0_n_n_wf : DotDims.WF S1024x256 S1024x256 S1024x1024 [1] [1] [0] [0] [] []
  hrank0 : 0 < grid0.rank
  k0_mult1_dvd : ∀ i : grid0.Coords, 1024 ∣ (k0_mult1 i).toNat
  k0_off1_inb : ∀ i : grid0.Coords, ∀ a, (k0_off1 i) a + S1024x256.size a ≤ S8192x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S8192x256.size a
  hwx0_0 : ∀ i : grid0.Coords, EltTy.bits .bf16 = 32 ∨ (Rect.block (s := S8192x256) S1024x256.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x256.size a ≤ S8192x256.size a
  hwx0_1 : ∀ i : grid0.Coords, EltTy.bits .bf16 = 32 ∨ (Rect.block (s := S8192x256) S8192x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .f32 = 32 ∨ (Rect.block (s := S8192x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .f32 = 32 ∨ (Rect.block (s := S1x8192) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S8192x8192.size a
  hwx0_4 : ∀ i : grid0.Coords, EltTy.bits .f32 = 32 ∨ (Rect.block (s := S8192x8192) S1024x1024.size (cc0_transform_4 i) (hinb0_4 i)).WholeWords (EltTy.packing .f32)

variable [Facts₀]

def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf

abbrev win0_0 : Pipeline.Window sig grid0 :=
  Pipeline.Window.ofSpec (Memref.whole main_v2) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S8192x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v6) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v9) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1024x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x256 : Shape := ⟨2, ![8192, 256]⟩
abbrev S_ : Shape := ⟨0, ![]⟩
abbrev S8192 : Shape := ⟨1, ![8192]⟩
abbrev S8192x8192 : Shape := ⟨2, ![8192, 8192]⟩
abbrev S8192x1 : Shape := ⟨2, ![8192, 1]⟩
abbrev S1x8192 : Shape := ⟨2, ![1, 8192]⟩

abbrev nBuf : Space → Nat
  | .hbm => 25
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S_, .f32⟩
  | .hbm, ⟨4, _⟩ => ⟨S8192, .f32⟩
  | .hbm, ⟨5, _⟩ => ⟨S8192x256, .f32⟩
  | .hbm, ⟨6, _⟩ => ⟨S_, .f32⟩
  | .hbm, ⟨7, _⟩ => ⟨S8192, .f32⟩
  | .hbm, ⟨8, _⟩ => ⟨S8192x8192, .f32⟩
  | .hbm, ⟨9, _⟩ => ⟨S8192x1, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S_, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S_, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  bcast_S_S8192x8192 : S_.BroadcastsInDim S8192x8192 (![] : Fin 0 → Fin S8192x8192.rank)
  dot_S8192x256_S8192x256_S8192x8192_1_1_0_0_n_n_wf : DotDims.WF S8192x256 S8192x256 S8192x8192 [1] [1] [0] [0] [] []

variable [Facts₀]

def dot_S8192x256_S8192x256_S8192x8192_1_1_0_0_n_n : DotDims S8192x256 S8192x256 S8192x8192 where
  lhsContracting := [1]
  rhsContracting := [1]
  lhsNonContracting := [0]
  rhsNonContracting := [0]
  lhsBatch := []
  rhsBatch := []
  wf := dot_S8192x256_S8192x256_S8192x8192_1_1_0_0_n_n_wf

class Facts : Prop extends Facts₀ where

variable [Facts]
-- ==== Proof.RbfAlgebra.lean ====
/-
  The two laws on the extended reals that join the tiled kernel to the plain reference of the Gaussian (RBF) kernel
  matrix  K(i, j) = exp(-‖x_i - y_j‖²),  with  ‖x_i - y_j‖² = ‖x_i‖² + ‖y_j‖² - 2 ⟨x_i, y_j⟩  clamped at 0 from below.

  * The tiled program doubles the rows of x BEFORE the inner product, the reference doubles the inner product:
    Σ_k (c · x_k) · y_k = c · Σ_k x_k · y_k. On the extended reals this is distributivity, which fails at the infinities,
    so it is stated for FINITE entries (each entry the image of a real).
  * The tiled program clamps AFTER the change of sign, the reference before it: min (-A) 0 = -(max A 0). This is
    order-reversal of negation and holds at every extended real, the infinities included.
-/
import Idealize.ShloMosaic.PureOps.Ideal

noncomputable section

namespace Cert.Rbf

open scoped BigOperators

/-- A finite sum of (images of) reals is the image of the real sum. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- An extended real is FINITE when it is the image of a real number. -/
def Fin' (x : EReal) : Prop := ∃ r : ℝ, x = (r : EReal)

/-- Scaling one factor of every term of an inner product of finite vectors scales the inner product. -/
theorem sum_scaled {ι : Type*} [Fintype ι] (c : ℝ) (x y : ι → EReal)
    (hx : ∀ k, Fin' (x k)) (hy : ∀ k, Fin' (y k)) :
    (∑ k, ((c : EReal) * x k) * y k) = (c : EReal) * ∑ k, x k * y k := by
  choose a ha using hx
  choose b hb using hy
  have e1 : ∀ k, ((c : EReal) * x k) * y k = ((c * a k * b k : ℝ) : EReal) := fun k => by
    rw [ha k, hb k, ← EReal.coe_mul, ← EReal.coe_mul]
  have e2 : ∀ k, x k * y k = ((a k * b k : ℝ) : EReal) := fun k => by
    rw [ha k, hb k, ← EReal.coe_mul]
  simp only [e1, e2]
  rw [coe_sum, coe_sum, ← EReal.coe_mul, Finset.mul_sum]
  congr 1
  exact Finset.sum_congr rfl fun k _ => mul_assoc c (a k) (b k)

/-- Changing sign exchanges the clamp from below with the clamp from above, at every extended real. -/
theorem min_neg_zero (A : EReal) : min (-A) 0 = -(max A 0) := by
  rcases le_total A 0 with h | h
  · have h' : (0 : EReal) ≤ -A := by simpa using EReal.neg_le_neg_iff.2 h
    rw [max_eq_right h, neg_zero, min_eq_right h']
  · have h' : -A ≤ (0 : EReal) := by simpa using EReal.neg_le_neg_iff.2 h
    rw [max_eq_left h, min_eq_left h']

/-- The same with the sign change spelt as the product with the real -1, as both programs spell it. -/
theorem min_negOne_mul_zero (A : EReal) :
    min (((-1 : ℝ) : EReal) * A) 0 = ((-1 : ℝ) : EReal) * max A 0 := by
  have h1 : ((-1 : ℝ) : EReal) = -1 := by rw [EReal.coe_neg, EReal.coe_one]
  rw [h1, neg_one_mul, neg_one_mul]
  exact min_neg_zero A

end Cert.Rbf

end
-- ==== Proof.RbfConsts.lean ====
/-
  The float literals both programs spell, as the extended reals their patterns denote: 2.0 (the doubling of the inner
  product), -1.0 (the change of sign before the exponential) and +inf (the bound of the finiteness precondition).
  The zero pattern is the library's.
-/
import Idealize.ShloMosaic.PureOps.Ideal

noncomputable section

namespace Cert.Rbf

open Idealize.ShloMosaic

/-- The pattern of 2.0 denotes the real 2. -/
theorem ofBits_two : Ideal.ofBits .f32 0x40000000#32 = ((2 : ℝ) : EReal) := by
  simp [Ideal.ofBits, Ideal.ieee, -EReal.coe_mul]; norm_num

/-- The pattern of -1.0 denotes the real -1. -/
theorem ofBits_neg_one : Ideal.ofBits .f32 0xBF800000#32 = ((-1 : ℝ) : EReal) := by
  simp [Ideal.ofBits, Ideal.ieee, -EReal.coe_mul, -EReal.coe_neg]; norm_num

/-- The pattern of +inf denotes the top element. -/
theorem ofBits_inf : Ideal.ofBits .f32 0x7F800000#32 = ⊤ := by
  simp [Ideal.ofBits, Ideal.ieee]

end Cert.Rbf

end
-- ==== Proof.RbfSpec.lean ====
/-
  The Gaussian kernel matrix as ONE function of the two point clouds x, y : [8192, 256] and of the two vectors of squared
  norms, kept abstract here (a column xs : [8192, 1] and a row ys : [1, 8192]; both programs compute them by the same
  host operations, so neither side ever opens them), in the two arrangements the programs use:

    reference   K(i, j) = exp ( -1 · max ( (xs_i + ys_j) - 2 · ⟨x_i, y_j⟩ , 0 ) )
    tiled       K(i, j) = exp ( min ( -1 · ( (xs_i + ys_j) - ⟨x'_i, y_j⟩ ) , 0 ) )      with x' = 2 · x entrywise

  and the theorem that they agree when every entry of x and y is finite: ⟨2·x_i, y_j⟩ = 2·⟨x_i, y_j⟩ (distributivity, the one
  step that needs finiteness), then min (-A) 0 = -(max A 0).
-/
import Idealize.ShloMosaic.PureOps.Ideal
import Idealize.ShloMosaic.PureOps.Ideal.Laws
import Idealize.ShloMosaic.Lib.ValueIdx
import proofs.«166023_j65481071402880_2_alg».proof.Proof.RbfAlgebra
import proofs.«166023_j65481071402880_2_alg».proof.Proof.RbfConsts

noncomputable section

namespace Cert.Rbf

open Idealize.ShloMosaic Idealize.ShloMosaic.ValueIdx
open scoped BigOperators

/-- The point clouds, the column and the row of squared norms, the kernel matrix. -/
abbrev SPts : Shape := ⟨2, ![8192, 256]⟩
abbrev SCol : Shape := ⟨2, ![8192, 1]⟩
abbrev SRow : Shape := ⟨2, ![1, 8192]⟩
abbrev SOut : Shape := ⟨2, ![8192, 8192]⟩

/-- The inner product of row i of x with row j of y. -/
def inner (x y : SPts.Idx → EReal) (i j : Fin 8192) : EReal := ∑ k : Fin 256, x (ix2 i k) * y (ix2 j k)

/-- The reference's arrangement at entry (i, j). -/
def refAt (x y : SPts.Idx → EReal) (xs : SCol.Idx → EReal) (ys : SRow.Idx → EReal) (i j : Fin 8192) : EReal :=
  Ideal.exp (Ideal.ofBits .f32 0xBF800000#32 *
    max ((xs (ix2 i (0 : Fin 1)) + ys (ix2 (0 : Fin 1) j)) - Ideal.ofBits .f32 0x40000000#32 * inner x y i j)
      (Ideal.ofBits .f32 0x00000000#32))

/-- The tiled program's arrangement at entry (i, j), over the already doubled x'. -/
def tiledAt (x' y : SPts.Idx → EReal) (xs : SCol.Idx → EReal) (ys : SRow.Idx → EReal) (i j : Fin 8192) : EReal :=
  Ideal.exp (min (Ideal.ofBits .f32 0xBF800000#32 * ((xs (ix2 i (0 : Fin 1)) + ys (ix2 (0 : Fin 1) j)) - inner x' y i j))
    (Ideal.ofBits .f32 0x00000000#32))

/-- The two as arrays. -/
def refForm (x y : SPts.Idx → EReal) (xs : SCol.Idx → EReal) (ys : SRow.Idx → EReal) : SOut.Idx → EReal :=
  fun I => refAt x y xs ys (I 0) (I 1)

def tiledForm (x' y : SPts.Idx → EReal) (xs : SCol.Idx → EReal) (ys : SRow.Idx → EReal) : SOut.Idx → EReal :=
  fun I => tiledAt x' y xs ys (I 0) (I 1)

/-- With finite entries the two arrangements are one number: doubling x before the inner product doubles the inner product,
    and the clamp commutes with the change of sign. -/
theorem tiledAt_eq_refAt (x' x y : SPts.Idx → EReal) (xs : SCol.Idx → EReal) (ys : SRow.Idx → EReal)
    (h2 : ∀ q, x' q = Ideal.ofBits .f32 0x40000000#32 * x q)
    (hx : ∀ q, Fin' (x q)) (hy : ∀ q, Fin' (y q)) (i j : Fin 8192) :
    tiledAt x' y xs ys i j = refAt x y xs ys i j := by
  unfold tiledAt refAt inner
  simp only [h2, ofBits_two, ofBits_neg_one, Ideal.ofBits_zero_f32]
  rw [sum_scaled 2 (fun k => x (ix2 i k)) (fun k => y (ix2 j k)) (fun k => hx _) (fun k => hy _), min_negOne_mul_zero]

theorem tiledForm_eq_refForm (x' x y : SPts.Idx → EReal) (xs : SCol.Idx → EReal) (ys : SRow.Idx → EReal)
    (h2 : ∀ q, x' q = Ideal.ofBits .f32 0x40000000#32 * x q)
    (hx : ∀ q, Fin' (x q)) (hy : ∀ q, Fin' (y q)) :
    tiledForm x' y xs ys = refForm x y xs ys :=
  funext fun I => tiledAt_eq_refAt x' x y xs ys h2 hx hy (I 0) (I 1)

end Cert.Rbf

end
-- ==== Proof.RbfFinite.lean ====
/-
  The precondition read back: "every entry of x and of y has absolute value below +inf" says that every entry is a real
  number. The printed predicate is the conjunction of two reductions by "and" over all entries of a comparison
  |v| < +inf; an extended real whose absolute value max v (-v) is below the top element is neither infinity.
-/
import proofs.«166023_j65481071402880_2_alg».proof.Pre_finite_inputs
import Idealize.ShloMosaic.Lib.ReduceAll
import Idealize.ShloMosaic.Lib.ValueIdx
import Idealize.ShloMosaic.PureOps.Ideal.Laws
import proofs.«166023_j65481071402880_2_alg».proof.Proof.RbfAlgebra
import proofs.«166023_j65481071402880_2_alg».proof.Proof.RbfConsts

noncomputable section

namespace Cert.Rbf

open Idealize.ShloMosaic

/-- The shape of a scalar has one index. -/
instance : Subsingleton Cert.Pre_finite_inputs.S_.Idx := ⟨fun a b => funext fun d => d.elim0⟩

/-- An extended real whose absolute value is below +inf is a real number. -/
theorem fin_of_abs_lt_inf (v : EReal)
    (h : Ideal.cmp .olt (max v (-v)) (Ideal.ofBits .f32 0x7F800000#32) = 1#1) : Fin' v := by
  rw [ofBits_inf] at h
  have hlt : max v (-v) < ⊤ := by
    by_contra hn
    simp [Ideal.cmp, hn] at h
  induction v using EReal.rec with
  | bot => simp at hlt
  | coe r => exact ⟨r, rfl⟩
  | top => simp at hlt

/-- Under the precondition every entry of both point clouds is finite. -/
theorem finite_of_pre [Cert.Pre_finite_inputs.Facts]
    (x y : FVec Ideal Cert.Pre_finite_inputs.S8192x256 .f32)
    (h : Cert.Pre_finite_inputs.fn (F := Ideal) x y = fun _ => 1#1) :
    (∀ q, Fin' (x q)) ∧ (∀ q, Fin' (y q)) := by
  have h0 := congrFun h ValueIdx.ix0
  dsimp only [Cert.Pre_finite_inputs.fn] at h0
  obtain ⟨hx, hy⟩ := IntOp.andi_eq_one.1 h0
  refine ⟨fun q => ?_, fun q => ?_⟩
  · exact fin_of_abs_lt_inf (x q) (Host.reduce_andi_all _ _ _ _ _ hx q)
  · exact fin_of_abs_lt_inf (y q) (Host.reduce_andi_all _ _ _ _ _ hy q)

end Cert.Rbf

end
-- ==== Proof.RbfRef.lean ====
/-
  The reference program's result, stage by stage, is the reference arrangement of the Gaussian kernel matrix
  (RbfSpec `refForm`) of the two point clouds and of its own column / row of squared norms (the stages that broadcast the
  two row-sum vectors to [8192, 1] and [1, 8192]; they are not opened): at entry (i, j) the column is read at (i, 0), the row
  at (0, j), and the `dot_general` is the sum over k of x(i, k) · y(j, k).
-/
import proofs.«166023_j65481071402880_2_alg».proof.Proof.Gen.ReferenceIdeal.Read
import proofs.«166023_j65481071402880_2_alg».proof.Proof.RbfSpec

noncomputable section

namespace Cert.Rbf.Ref

open Cert.ReferenceIdeal Cert.ReferenceIdeal.Gen Cert.ReferenceIdeal.Read
open Idealize.ShloMosaic Idealize.ShloMosaic.ValueIdx
open scoped BigOperators

/-- The column of squared norms is read at (i, 0). -/
theorem col_idx (I : S8192x8192.Idx) : idx_main_v7 I = ix2 (I 0) (0 : Fin 1) :=
  funext fun a => Fin.ext (by match a with | ⟨0, _⟩ => rfl | ⟨1, _⟩ => rfl)

/-- The row of squared norms is read at (0, j). -/
theorem row_idx (I : S8192x8192.Idx) : idx_main_v8 I = ix2 (0 : Fin 1) (I 1) :=
  funext fun a => Fin.ext (by match a with | ⟨0, _⟩ => rfl | ⟨1, _⟩ => rfl)

/-- The inner product reads x at (i, k) … -/
theorem lhs_idx (I : S8192x8192.Idx) (k : Fin 256) : lidx_main_v4 I k = ix2 (I 0) k :=
  funext fun a => Fin.ext (by match a with | ⟨0, _⟩ => rfl | ⟨1, _⟩ => rfl)

/-- … and y at (j, k). -/
theorem rhs_idx (I : S8192x8192.Idx) (k : Fin 256) : ridx_main_v4 I k = ix2 (I 1) k :=
  funext fun a => Fin.ext (by match a with | ⟨0, _⟩ => rfl | ⟨1, _⟩ => rfl)

/-- The reference's last stage is the reference arrangement over its own squared-norm stages. -/
theorem val_eq (x y : (⟨S8192x256, .f32⟩ : BufTy).Contents (Elt Ideal)) :
    val_main_v17 (F := Ideal) x y = refForm x y (val_main_v5 (F := Ideal) x) (val_main_v6 (F := Ideal) y) := by
  funext I
  rw [val_main_v17_apply, val_main_v16_apply, val_main_v15_apply, val_main_cst_3_apply, val_main_v14_apply,
    val_main_v13_apply, val_main_cst_2_apply, val_main_v12_apply, val_main_v9_apply, val_main_v7_apply, val_main_v8_apply,
    val_main_v11_apply, val_main_v10_apply, val_main_cst_1_apply, val_main_v4_apply]
  simp only [col_idx, row_idx, lhs_idx, rhs_idx, Ideal.hostUnary_exp_def, Ideal.mulf_def, Ideal.maximumf_def, Ideal.subf_def,
    Ideal.addf_def, Ideal.ofBits_def]
  rfl

end Cert.Rbf.Ref

end
-- ==== Proof.RbfEntry.lean ====
/-
  The four arrays the tiled call's input windows read, as the host operations before the call leave them, in terms of the
  two argument arrays x and y:

    window 0   the doubled x, entrywise 2 · x (the narrowing to bf16 is the identity on extended reals);
    window 1   y (narrowed likewise);
    window 2   the column of squared norms of x: the SAME chain of host operations (x·x, row sums, a broadcast to [8192, 1])
               as the reference's own column stage, so it IS that stage, and is not opened;
    window 3   the row of squared norms of y, likewise the reference's own row stage.
-/
import proofs.«166023_j65481071402880_2_alg».proof.Proof.Gen.KernelIdeal.Frame
import proofs.«166023_j65481071402880_2_alg».proof.Proof.Gen.ReferenceIdeal.Read
import Idealize.ShloMosaic.Lib.StableHlo.Run
import Idealize.ShloMosaic.Lib.Tactic

noncomputable section

namespace Cert.Rbf.Entry

open Cert.KernelIdeal Cert.KernelIdeal.Gen
open Idealize.ShloMosaic Idealize.ShloMosaic.TcCoe Idealize.SL.Sem

variable (m : (ℓ : Loc nD τ sig) → Buf (Elt Ideal) ℓ)

/-- Window 0's array is the doubled x. -/
theorem doubled (c : Dev nD) (q : S8192x256.Idx) :
    V m c main_v2 q = Ideal.ofBits .f32 0x40000000#32 * m ((c : Thread nD τ).loc main_arg0) q := by
  have e : (V m c main_v2 : S8192x256.Idx → EReal)
      = truncf .bf16 (mulf (broadcastInDim S8192x256 ![] bcast_S_S8192x256 (constant (F := Ideal) S_ .f32 0x40000000#32))
          (m ((c : Thread nD τ).loc main_arg0))) bitsLt_bf16_f32 := by
    dsimp only [Gen.V, Gen.hostOps0]; after_results
  rw [e]; rfl

/-- Window 1's array is y. -/
theorem second (c : Dev nD) (q : S8192x256.Idx) :
    V m c main_v3 q = m ((c : Thread nD τ).loc main_arg1) q := by
  have e : (V m c main_v3 : S8192x256.Idx → EReal)
      = truncf (F := Ideal) .bf16 (m ((c : Thread nD τ).loc main_arg1) : FVec Ideal S8192x256 .f32) bitsLt_bf16_f32 := by
    dsimp only [Gen.V, Gen.hostOps0]; after_results
  rw [e]; rfl

/-- Window 2's array is the reference's column of squared norms of x. -/
theorem column (c : Dev nD) :
    (V m c main_v6 : S8192x1.Idx → EReal)
      = Cert.ReferenceIdeal.Read.val_main_v5 (F := Ideal) (m ((c : Thread nD τ).loc main_arg0)) := by
  dsimp only [Gen.V, Gen.hostOps0]; after_results; rfl

/-- Window 3's array is the reference's row of squared norms of y. -/
theorem row (c : Dev nD) :
    (V m c main_v9 : S1x8192.Idx → EReal)
      = Cert.ReferenceIdeal.Read.val_main_v6 (F := Ideal) (m ((c : Thread nD τ).loc main_arg1)) := by
  dsimp only [Gen.V, Gen.hostOps0]; after_results; rfl

end Cert.Rbf.Entry

end
-- ==== Proof.RbfPayload.lean ====
/-
  What the tile body stores, entry by entry. From its four loaded blocks — a [1024, 256] block xb of the doubled x, a
  [1024, 256] block yb of y, a [1024, 1] block cs of the column of squared norms and a [1, 1024] block rs of the row of
  squared norms — the body's one stored value at (r, s) is

      exp ( min ( -1 · ( (cs(r, 0) + rs(0, s)) - Σ_k xb(r, k) · yb(s, k) ) , 0 ) ):

  the two broadcasts read the column at its row r and the row at its column s, and the matrix product into a zero
  accumulator, contracting the second axis of both operands, is the plain sum over k.
-/
import proofs.«166023_j65481071402880_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws
import proofs.«166023_j65481071402880_2_alg».proof.Proof.RbfSpec

noncomputable section

namespace Cert.Rbf.Tile

open Cert.KernelIdeal Cert.KernelIdeal.Gen
open Idealize.ShloMosaic Idealize.ShloMosaic.ValueIdx
open scoped BigOperators

/-- An [a, 1] column broadcast to [a, b] reads, at (p, c), the column's entry of row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The left operand of the tile's product keeps the output's row coordinate … -/
theorem lhs_row (i : S1024x1024.Idx) (q : (dot_S1024x256_S1024x256_S1024x1024_1_1_0_0_n_n).contr.Idx) :
    ((dot_S1024x256_S1024x256_S1024x1024_1_1_0_0_n_n).lhsIdx i q 0).val = (i 0).val := by
  unfold DotDims.lhsIdx
  rw [dif_neg (show ¬(0 : Fin S1024x256.rank) ∈ (dot_S1024x256_S1024x256_S1024x1024_1_1_0_0_n_n).lhsBatch by decide),
    dif_pos (show (0 : Fin S1024x256.rank) ∈ (dot_S1024x256_S1024x256_S1024x1024_1_1_0_0_n_n).lhsNonContracting by decide)]
  rfl

/-- … and takes the contraction coordinate on its second axis. -/
theorem lhs_col (i : S1024x1024.Idx) (q : (dot_S1024x256_S1024x256_S1024x1024_1_1_0_0_n_n).contr.Idx) :
    ((dot_S1024x256_S1024x256_S1024x1024_1_1_0_0_n_n).lhsIdx i q 1).val = (q ⟨0, by decide⟩).val :=
  (dot_S1024x256_S1024x256_S1024x1024_1_1_0_0_n_n).lhsIdx_val_of_single rfl i q

/-- The right operand takes the output's COLUMN coordinate on its first axis (the product contracts the second axis of
    both operands) … -/
theorem rhs_row (i : S1024x1024.Idx) (q : (dot_S1024x256_S1024x256_S1024x1024_1_1_0_0_n_n).contr.Idx) :
    ((dot_S1024x256_S1024x256_S1024x1024_1_1_0_0_n_n).rhsIdx i q 0).val = (i 1).val := by
  unfold DotDims.rhsIdx
  rw [dif_neg (show ¬(0 : Fin S1024x256.rank) ∈ (dot_S1024x256_S1024x256_S1024x1024_1_1_0_0_n_n).rhsBatch by decide),
    dif_pos (show (0 : Fin S1024x256.rank) ∈ (dot_S1024x256_S1024x256_S1024x1024_1_1_0_0_n_n).rhsNonContracting by decide)]
  rfl

/-- … and the contraction coordinate on its second. -/
theorem rhs_col (i : S1024x1024.Idx) (q : (dot_S1024x256_S1024x256_S1024x1024_1_1_0_0_n_n).contr.Idx) :
    ((dot_S1024x256_S1024x256_S1024x1024_1_1_0_0_n_n).rhsIdx i q 1).val = (q ⟨0, by decide⟩).val :=
  (dot_S1024x256_S1024x256_S1024x1024_1_1_0_0_n_n).rhsIdx_val_of_single rfl i q

/-- So at output (r, s) and contraction coordinate k the left operand is read at (r, k) … -/
theorem lhs_at (r s : Fin 1024) (k : Fin 256) :
    (dot_S1024x256_S1024x256_S1024x1024_1_1_0_0_n_n).lhsIdx (ix2 r s)
      ((contrEquiv1 dot_S1024x256_S1024x256_S1024x1024_1_1_0_0_n_n 256 rfl rfl).symm k) = ix2 r k := by
  have hk := contrEquiv1_symm_val dot_S1024x256_S1024x256_S1024x1024_1_1_0_0_n_n 256 rfl rfl k
  exact funext fun a => Fin.ext (by
    match a with
    | ⟨0, _⟩ => exact lhs_row _ _
    | ⟨1, _⟩ => exact (lhs_col _ _).trans hk)

/-- … and the right operand at (s, k). -/
theorem rhs_at (r s : Fin 1024) (k : Fin 256) :
    (dot_S1024x256_S1024x256_S1024x1024_1_1_0_0_n_n).rhsIdx (ix2 r s)
      ((contrEquiv1 dot_S1024x256_S1024x256_S1024x1024_1_1_0_0_n_n 256 rfl rfl).symm k) = ix2 s k := by
  have hk := contrEquiv1_symm_val dot_S1024x256_S1024x256_S1024x1024_1_1_0_0_n_n 256 rfl rfl k
  exact funext fun a => Fin.ext (by
    match a with
    | ⟨0, _⟩ => exact rhs_row _ _
    | ⟨1, _⟩ => exact (rhs_col _ _).trans hk)

/-- The tile's matrix product into the zero accumulator, at (r, s): the sum over k of l(r, k) · w(s, k). -/
theorem matmul_at (l w : FVec Ideal S1024x256 .bf16) (r s : Fin 1024) :
    FloatOps.matmul (F := Ideal) dot_S1024x256_S1024x256_S1024x1024_1_1_0_0_n_n none l w (constant S1024x1024 .f32 0x00000000#32) (ix2 r s)
      = ∑ k : Fin 256, l (ix2 r k) * w (ix2 s k) := by
  rw [Ideal.matmul_constant_zero_apply,
    ← Equiv.sum_comp (contrEquiv1 dot_S1024x256_S1024x256_S1024x1024_1_1_0_0_n_n 256 rfl rfl).symm]
  refine Finset.sum_congr rfl fun k _ => ?_
  rw [lhs_at, rhs_at]

/-- The body's stored value at (r, s), from its four loaded blocks. -/
theorem pay_at (yb xb : Vec Ideal S1024x256 .bf16) (cs : Vec Ideal S1024x1 .f32) (rs : Vec Ideal S1x1024 .f32)
    (r s : Fin 1024) :
    k0_pay1 (F := Ideal) yb xb cs rs (ix2 r s)
      = Ideal.exp (min (Ideal.ofBits .f32 0xBF800000#32 *
          ((cs (ix2 r (0 : Fin 1)) + rs (ix2 (0 : Fin 1) s)) - ∑ k : Fin 256, xb (ix2 r k) * yb (ix2 s k)))
          (Ideal.ofBits .f32 0x00000000#32)) := by
  unfold k0_pay1
  simp only [shapeCast_self]
  show Ideal.exp (min (Ideal.ofBits .f32 0xBF800000#32 *
      ((broadcastTo S1024x1024 cs broadcasts_S1024x1_S1024x1024 (ix2 r s)
        + broadcastTo S1024x1024 rs broadcasts_S1x1024_S1024x1024 (ix2 r s))
       - FloatOps.matmul (F := Ideal) dot_S1024x256_S1024x256_S1024x1024_1_1_0_0_n_n none xb yb (constant S1024x1024 .f32 0x00000000#32) (ix2 r s)))
      (Ideal.ofBits .f32 0x00000000#32)) = _
  rw [broadcastTo_a1_ab_apply, broadcastTo_1b_ab_apply, matmul_at]

/-- So, when the four blocks are the pieces of whole arrays X', Y (the point clouds), XS (the column) and YS (the row) that belong to
    entry (I, J) — row r of the x-block is row I of X', row s of the y-block is row J of Y, and the two norm blocks hold XS(I, 0)
    and YS(0, J) at r and s —, the stored value at (r, s) is the tiled arrangement of the kernel matrix at (I, J). -/
theorem tile_entry (X' Y : Cert.Rbf.SPts.Idx → EReal) (XS : Cert.Rbf.SCol.Idx → EReal) (YS : Cert.Rbf.SRow.Idx → EReal)
    (yb xb : Vec Ideal S1024x256 .bf16) (cs : Vec Ideal S1024x1 .f32) (rs : Vec Ideal S1x1024 .f32)
    (r s : Fin 1024) (I J : Fin 8192)
    (hxb : ∀ k : Fin 256, xb (ix2 r k) = X' (ix2 I k)) (hyb : ∀ k : Fin 256, yb (ix2 s k) = Y (ix2 J k))
    (hcs : cs (ix2 r (0 : Fin 1)) = XS (ix2 I (0 : Fin 1))) (hrs : rs (ix2 (0 : Fin 1) s) = YS (ix2 (0 : Fin 1) J)) :
    k0_pay1 (F := Ideal) yb xb cs rs (ix2 r s) = Cert.Rbf.tiledAt X' Y XS YS I J := by
  rw [pay_at]
  unfold Cert.Rbf.tiledAt Cert.Rbf.inner
  simp only [hxb, hyb, hcs, hrs]

end Cert.Rbf.Tile

end
-- ==== Proof.RbfBlocks.lean ====
/-
  From tiles to the whole kernel matrix. The call runs an 8 × 8 grid of points; point (p, q) computes the [1024, 1024] tile
  of the [8192, 8192] result at block (p, q) from rows 1024·p … of the doubled x (window 0), rows 1024·q … of y — cut by the
  body itself, at the offset 1024·q, out of the whole of y that window 1 keeps resident —, rows 1024·p … of the column of squared
  norms (window 2) and columns 1024·q … of the row of squared norms (window 3).

  * What one point leaves in the output's staging buffer is its one stored value over its four loads (`tile_value`).
  * Entry (r, s) of the tile at point (p, q) is therefore the tiled arrangement of the kernel matrix at
    (1024·p + r, 1024·q + s): what point t writes back is block t of ONE function of the four window arrays
    (`written_back`).
  * The 64 blocks tile the result: entry (I, J) lies in the block of the point with p = I / 1024, q = J / 1024 (`cover`).
  So the result array ends holding that function everywhere (`final`), and the run is re-posted with it (`run`).
-/
import proofs.«166023_j65481071402880_2_alg».proof.Proof.Gen.KernelIdeal.Value
import Idealize.ShloMosaic.Lib.Pipeline.Value
import Idealize.ShloMosaic.Lib.Tactic
import proofs.«166023_j65481071402880_2_alg».proof.Proof.RbfPayload

set_option maxRecDepth 16384

noncomputable section

namespace Cert.Rbf.Blocks

open Cert.KernelIdeal Cert.KernelIdeal.Gen
open Idealize.ShloMosaic Idealize.ShloMosaic.TcCoe Idealize.ShloMosaic.Tactic Idealize.SL.Sem Idealize.ShloMosaic.ValueIdx
open Idealize.ShloMosaic.Pipeline (Dat)

/-- The zero offsets of a whole-buffer access. -/
theorem zero_off : (![0, 0] : Fin 2 → Nat) = fun _ => 0 := funext fun a => by fin_cases a <;> rfl

section AnyInstance
variable {F : FTy → Type} [FloatOps F]

/-- What the body leaves in the output's staging buffer, on any staging buffers holding x0 (the x-block), x1 (the whole of y),
    x2 (the column block) and x3 (the row block): its one whole-buffer store's value, whose first operand is the rows of x1 from
    the point's own offset on and whose other three operands are the buffers' contents. -/
theorem tile_value (c : Dev nD) (i : grid0.Coords)
    (a2 : Memref sig .tc .vmem S1024x256 .bf16) (h2 : a2.IsWhole) (a3 : Memref sig .tc .vmem S8192x256 .bf16) (h3 : a3.IsWhole)
    (a4 : Memref sig .tc .vmem S1024x1 .f32) (h4 : a4.IsWhole) (a5 : Memref sig .tc .vmem S1x1024 .f32) (h5 : a5.IsWhole)
    (a6 : Memref sig .tc .vmem S1024x1024 .f32) (h6 : a6.IsWhole)
    (x0 : Vec F S1024x256 .bf16) (x1 : Vec F S8192x256 .bf16) (x2 : Vec F S1024x1 .f32) (x3 : Vec F S1x1024 .f32) :
    out0_A_4 c i a2 h2 a3 h3 a4 h4 a5 h5 a6 h6 x0 x1 x2 x3
      = k0_pay1 (View.ld x1 (Rect.unit (s := S8192x256) (k0_off1 i) S1024x256.size (k0_off1_inb i))) x0 x2 x3 := by
  unfold out0_A_4
  rw [View.read_writes_eq_canon _ _ _ (cover0_A_4 c i a2 h2 a3 h3 a4 h4 a5 h5 a6 h6 x0 x1 x2 x3)]
  unfold kernelRun0_A
  dsimp only
  rw [View.canon_unit_zero zero_off]
  simp only [View.readAt_eq_ld, h2.read_unread, h3.read_unread, h4.read_unread, h5.read_unread,
    View.ld_unit_zero (S := S1024x256) zero_off, View.ld_unit_zero (S := S1024x1) zero_off,
    View.ld_unit_zero (S := S1x1024) zero_off]

end AnyInstance

variable (m : (ℓ : Loc nD τ sig) → Buf (Elt Ideal) ℓ)

/-- The block indices of the five windows at a grid point t = (p, q), decided over the 64 points: the x-block and the column
    block sit at block row p (the output's block row), the row block at block column q (the output's block column), y's one
    block is the whole array, q is the second grid coordinate, and p, q < 8. -/
theorem block_indices : ∀ t : Fin cfg0.N,
    win0_0.index t (0 : Fin 2) = win0_4.index t (0 : Fin 2) ∧ win0_0.index t (1 : Fin 2) = 0
    ∧ win0_1.index t (0 : Fin 2) = 0 ∧ win0_1.index t (1 : Fin 2) = 0
    ∧ win0_2.index t (0 : Fin 2) = win0_4.index t (0 : Fin 2) ∧ win0_2.index t (1 : Fin 2) = 0
    ∧ win0_3.index t (0 : Fin 2) = 0 ∧ win0_3.index t (1 : Fin 2) = win0_4.index t (1 : Fin 2)
    ∧ (grid0.coords t (1 : Fin 2)).val = win0_4.index t (1 : Fin 2)
    ∧ win0_4.index t (0 : Fin 2) ≤ 7 ∧ win0_4.index t (1 : Fin 2) ≤ 7 :=
  (by decide +kernel : ∀ t : Fin grid0.N, _)

/-- WHAT POINT t WRITES BACK is block t of the tiled arrangement of the kernel matrix over the four window arrays as the call
    finds them: entry (r, s) of the tile reads row r of the x-block = row 1024·p + r of the doubled x, row s of the body's own
    cut of y = row 1024·q + s of y, and the two norm blocks at r and s = the column at row 1024·p + r and the row at column
    1024·q + s — the coordinates of the tile's entry (r, s) in the result. -/
theorem written_back (c : Dev nD) (t : Fin cfg0.N) :
    (dats m 0 c).flushed 4 t = ((cfg0.win 4).blk t).view.read (Elt Ideal)
      (Cert.Rbf.tiledForm (V m c main_v2) (V m c main_v3) (V m c main_v6) (V m c main_v9)) := by
  rw [Cert.KernelIdeal.Value.flushed4_A, tile_value]
  obtain ⟨e00, e01, e10, e11, e20, e21, e30, e31, eg, b0, b1⟩ := block_indices t
  have ko0 : k0_off1 (grid0.coords t) (0 : Fin 2) = 1024 * (grid0.coords t (1 : Fin 2)).val :=
    congrFun (k0_off1_eq (grid0.coords t)) 0
  have ko1 : k0_off1 (grid0.coords t) (1 : Fin 2) = 0 := congrFun (k0_off1_eq (grid0.coords t)) 1
  funext j
  obtain ⟨r, s, rfl⟩ : ∃ (r s : Fin 1024), j = ix2 r s := ⟨j 0, j 1, eq_ix2 j⟩
  show k0_pay1 (F := Ideal)
      (View.ld (iblk m c 1 t) (Rect.unit (s := S8192x256) (k0_off1 (grid0.coords t)) S1024x256.size (k0_off1_inb (grid0.coords t))))
      (iblk m c 0 t) (iblk m c 2 t) (iblk m c 3 t) (ix2 r s)
    = Cert.Rbf.tiledAt (V m c main_v2) (V m c main_v3) (V m c main_v6) (V m c main_v9)
        ((((cfg0.win 4).blk t).view.emb (ix2 r s)) 0) ((((cfg0.win 4).blk t).view.emb (ix2 r s)) 1)
  refine Cert.Rbf.Tile.tile_entry (V m c main_v2) (V m c main_v3) (V m c main_v6) (V m c main_v9)
    (View.ld (iblk m c 1 t) (Rect.unit (s := S8192x256) (k0_off1 (grid0.coords t)) S1024x256.size (k0_off1_inb (grid0.coords t))))
    (iblk m c 0 t) (iblk m c 2 t) (iblk m c 3 t) r s
    ((((cfg0.win 4).blk t).view.emb (ix2 r s)) 0) ((((cfg0.win 4).blk t).view.emb (ix2 r s)) 1) ?_ ?_ ?_ ?_
  · -- row r of the x-block is row 1024·p + r of the doubled x
    intro k
    show V m c main_v2 (((cfg0.win 0).blk t).view.emb (ix2 r k)) = _
    refine congrArg (V m c main_v2) (funext fun a => Fin.ext ?_)
    match a with
    | ⟨0, _⟩ => show win0_0.index t (0 : Fin 2) * 1024 + 1 * r.val = win0_4.index t (0 : Fin 2) * 1024 + 1 * r.val; omega
    | ⟨1, _⟩ => show win0_0.index t (1 : Fin 2) * 256 + 1 * k.val = k.val; omega
  · -- row s of the body's cut of the resident y is row 1024·q + s of y
    intro k
    show V m c main_v3 (((cfg0.win 1).blk t).view.emb
        ((Rect.unit (s := S8192x256) (k0_off1 (grid0.coords t)) S1024x256.size (k0_off1_inb (grid0.coords t))).idx (ix2 s k))) = _
    refine congrArg (V m c main_v3) (funext fun a => Fin.ext ?_)
    match a with
    | ⟨0, _⟩ => show win0_1.index t (0 : Fin 2) * 8192 + 1 * (k0_off1 (grid0.coords t) (0 : Fin 2) + 1 * s.val) = win0_4.index t (1 : Fin 2) * 1024 + 1 * s.val; omega
    | ⟨1, _⟩ => show win0_1.index t (1 : Fin 2) * 256 + 1 * (k0_off1 (grid0.coords t) (1 : Fin 2) + 1 * k.val) = k.val; omega
  · -- the column block at r is the column at row 1024·p + r
    show V m c main_v6 (((cfg0.win 2).blk t).view.emb (ix2 r (0 : Fin 1))) = _
    refine congrArg (V m c main_v6) (funext fun a => Fin.ext ?_)
    match a with
    | ⟨0, _⟩ => show win0_2.index t (0 : Fin 2) * 1024 + 1 * r.val = win0_4.index t (0 : Fin 2) * 1024 + 1 * r.val; omega
    | ⟨1, _⟩ => show win0_2.index t (1 : Fin 2) * 1 + 1 * 0 = 0; omega
  · -- the row block at s is the row at column 1024·q + s
    show V m c main_v9 (((cfg0.win 3).blk t).view.emb (ix2 (0 : Fin 1) s)) = _
    refine congrArg (V m c main_v9) (funext fun a => Fin.ext ?_)
    match a with
    | ⟨0, _⟩ => show win0_3.index t (0 : Fin 2) * 1 + 1 * 0 = 0; omega
    | ⟨1, _⟩ => show win0_3.index t (1 : Fin 2) * 1024 + 1 * s.val = win0_4.index t (1 : Fin 2) * 1024 + 1 * s.val; omega

/-- Every block (p, q) with p, q < 8 is some grid point's (decided over the 64 pairs). -/
theorem every_block : ∀ (q0 q1 : Fin 8), ∃ t : Fin cfg0.N, win0_4.index t = ![q0.val, q1.val] :=
  (by decide +kernel : ∀ (q0 q1 : Fin 8), ∃ t : Fin grid0.N, win0_4.index t = ![q0.val, q1.val])

/-- An entry of the result lies in point t's block iff each coordinate is in the block's range of 1024 on its axis. -/
theorem mem_block (t : Fin cfg0.N) (i : S8192x8192.Idx) :
    i ∈ ((cfg0.win 4).blk t).view.set ↔ ∀ a : Fin 2, win0_4.index t a * S1024x1024.size a ≤ (i a).val
      ∧ (i a).val < win0_4.index t a * S1024x1024.size a + S1024x1024.size a := by
  show i ∈ ((View.whole main_v10).slice (win0_4.rect t)).set ↔ _
  rw [View.set_slice_whole, Rect.mem_set_unit]
  exact Iff.rfl

/-- The 64 blocks tile the result: entry (I, J) is in the block of the point whose block index is (I / 1024, J / 1024), and every
    point writes its block back. -/
theorem cover (i : S8192x8192.Idx) :
    ∃ t : Fin cfg0.N, (cfg0.win 4).flush t = true ∧ i ∈ ((cfg0.win 4).blk t).view.set := by
  have hi0 : (i 0).val < 8192 := (i 0).isLt
  have hi1 : (i 1).val < 8192 := (i 1).isLt
  obtain ⟨t, ht⟩ := every_block ⟨(i 0).val / 1024, by omega⟩ ⟨(i 1).val / 1024, by omega⟩
  have q0 : win0_4.index t (0 : Fin 2) = (i 0).val / 1024 := congrFun ht 0
  have q1 : win0_4.index t (1 : Fin 2) = (i 1).val / 1024 := congrFun ht 1
  refine ⟨t, flush0_4 t, ?_⟩
  rw [mem_block]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 1024 ≤ (i 1).val ∧ (i 1).val < win0_4.index t (1 : Fin 2) * 1024 + 1024; omega

/-- THE RESULT ARRAY after the call: the tiled arrangement of the kernel matrix over the four window arrays, everywhere. -/
theorem final (c : Dev nD) : (dats m 0 c).arrAt 4 cfg0.N
    = Cert.Rbf.tiledForm (V m c main_v2) (V m c main_v3) (V m c main_v6) (V m c main_v9) :=
  (dats m 0 c).arrAt_eq_of_cover 4 _ (fun t _ => written_back m c t) cover

/-- The tiled program's run, read: the result at that function, the two arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v10)
        = Cert.Rbf.tiledForm (V m c main_v2) (V m c main_v3) (V m c main_v6) (V m c main_v9)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Cert.KernelIdeal.Value.run_blocks m ρ)

end Cert.Rbf.Blocks

end
-- ==== Proof.lean ====
/-
  The Gaussian (RBF) kernel matrix  K(i, j) = exp(-‖x_i - y_j‖²)  of two clouds of 8192 points in dimension 256, computed through
  ‖x_i - y_j‖² = ‖x_i‖² + ‖y_j‖² - 2⟨x_i, y_j⟩ clamped at 0 from below: a tiled program (an 8 × 8 grid of [1024, 1024] tiles, the
  doubled x, y and the two vectors of squared norms prepared on the host) against the plain reference, over the extended reals
  and for finite inputs.

    tiled       exp ( min ( -1 · ( (‖x_i‖² + ‖y_j‖²) - ⟨2·x_i, y_j⟩ ) , 0 ) )
    reference   exp ( -1 · max ( (‖x_i‖² + ‖y_j‖²) - 2 · ⟨x_i, y_j⟩ , 0 ) )

  Both vectors of squared norms are the same host operations in the two programs and are never opened. The two arrangements are
  joined by distributivity — ⟨2·x_i, y_j⟩ = 2·⟨x_i, y_j⟩, the one step that uses the finiteness of the inputs (RbfAlgebra
  `sum_scaled`) — and by the order-reversal of negation, min (-A) 0 = -(max A 0), which holds at every extended real
  (`min_neg_zero`). The modules: RbfAlgebra and RbfConsts (the laws; the literals 2, -1, +inf), RbfSpec (the two arrangements as
  functions and their agreement), RbfFinite (the precondition says every entry is a real), RbfRef (the reference's stages are
  the reference arrangement), RbfPayload (a tile's stored value entry by entry), RbfEntry (the four arrays the tiles read, from
  the host operations before the call), RbfBlocks (from the 64 tiles to the whole matrix). The narrowing of the matrix product's
  operands to bf16 is the identity on extended reals, so nothing is said about it beyond that.
-/
import proofs.«166023_j65481071402880_2_alg».proof.Defs
import proofs.«166023_j65481071402880_2_alg».proof.Proof.Gen.Kernel
import proofs.«166023_j65481071402880_2_alg».proof.Proof.Gen.Kernel.Skeleton
import proofs.«166023_j65481071402880_2_alg».proof.Proof.Gen.Kernel.Launch
import proofs.«166023_j65481071402880_2_alg».proof.Proof.Gen.Kernel.Points
import proofs.«166023_j65481071402880_2_alg».proof.Proof.Gen.Kernel.Frame
import proofs.«166023_j65481071402880_2_alg».proof.Proof.Gen.KernelIdeal
import proofs.«166023_j65481071402880_2_alg».proof.Proof.Gen.KernelIdeal.Skeleton
import proofs.«166023_j65481071402880_2_alg».proof.Proof.Gen.KernelIdeal.Launch
import proofs.«166023_j65481071402880_2_alg».proof.Proof.Gen.KernelIdeal.Points
import proofs.«166023_j65481071402880_2_alg».proof.Proof.Gen.KernelIdeal.Frame
import proofs.«166023_j65481071402880_2_alg».proof.Proof.Gen.ReferenceIdeal
import proofs.«166023_j65481071402880_2_alg».proof.Proof.Gen.KernelIdeal.Value
import proofs.«166023_j65481071402880_2_alg».proof.Proof.Gen.ReferenceIdeal.Run
import proofs.«166023_j65481071402880_2_alg».proof.Proof.Gen.ReferenceIdeal.Read
import proofs.«166023_j65481071402880_2_alg».proof.Proof.Gen.Pre_finite_inputs
import proofs.«166023_j65481071402880_2_alg».proof.Proof.RbfSpec
import proofs.«166023_j65481071402880_2_alg».proof.Proof.RbfFinite
import proofs.«166023_j65481071402880_2_alg».proof.Proof.RbfRef
import proofs.«166023_j65481071402880_2_alg».proof.Proof.RbfEntry
import proofs.«166023_j65481071402880_2_alg».proof.Proof.RbfBlocks
import Idealize.ShloMosaic.Adequacy
import Idealize.ShloMosaic.Init

noncomputable section

namespace Cert.Proof

open Idealize.ShloMosaic Idealize.ShloMosaic.TcCoe Idealize.SL.Sem

/-- The word-level tiled program runs and leaves its arguments as they were. -/
theorem frame_tiled : Cert.frame_Kernel := fun m ρ _ => Cert.Kernel.Gen.frame m ρ

/-- So does its reading over the extended reals. -/
theorem frame_tiled_ideal : Cert.frame_KernelIdeal := fun m ρ _ => Cert.KernelIdeal.Gen.frame m ρ

/-- The reference is a straight line of host operations: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Reading the tiled program over the extended reals rewrote no operation. -/
theorem preserves : Cert.preserves_Kernel_KernelIdeal := trivial

/-- From finite inputs both programs end with the reference arrangement of the kernel matrix of their (agreeing) arguments:
    the reference by its stages, the tiled program by its 64 tiles and the two laws. -/
theorem algebraic : Cert.algebraic_KernelIdeal_ReferenceIdeal := by
  intro m ρ m' ρ' hpre hagree
  refine ⟨fun c => Cert.Rbf.refForm
      (m ((c : Thread Cert.KernelIdeal.nD Cert.KernelIdeal.τ).loc Cert.KernelIdeal.main_arg0))
      (m ((c : Thread Cert.KernelIdeal.nD Cert.KernelIdeal.τ).loc Cert.KernelIdeal.main_arg1))
      (Cert.ReferenceIdeal.Read.val_main_v5 (F := Ideal) (m ((c : Thread Cert.KernelIdeal.nD Cert.KernelIdeal.τ).loc Cert.KernelIdeal.main_arg0)))
      (Cert.ReferenceIdeal.Read.val_main_v6 (F := Ideal) (m ((c : Thread Cert.KernelIdeal.nD Cert.KernelIdeal.τ).loc Cert.KernelIdeal.main_arg1))),
    ?_, ?_⟩
  · refine (θ_run Cert.KernelIdeal.defs _ _).mono (fun r h c => ⟨(h c).1.trans ?_, (h c).2⟩) (Cert.Rbf.Blocks.run m ρ)
    obtain ⟨hx, hy⟩ := Cert.Rbf.finite_of_pre
      (m ((c : Thread Cert.KernelIdeal.nD Cert.KernelIdeal.τ).loc Cert.KernelIdeal.main_arg0))
      (m ((c : Thread Cert.KernelIdeal.nD Cert.KernelIdeal.τ).loc Cert.KernelIdeal.main_arg1)) (hpre c)
    rw [Cert.Rbf.Entry.column, Cert.Rbf.Entry.row,
      show Cert.KernelIdeal.Gen.V m c Cert.KernelIdeal.main_v3
          = m ((c : Thread Cert.KernelIdeal.nD Cert.KernelIdeal.τ).loc Cert.KernelIdeal.main_arg1)
        from funext (Cert.Rbf.Entry.second m c)]
    exact Cert.Rbf.tiledForm_eq_refForm _ _ _ _ _ (Cert.Rbf.Entry.doubled m c) hx hy
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v17_eq, Cert.Rbf.Ref.val_eq, (hagree c).1, (hagree c).2]

theorem claim : Cert.Claim := ⟨Cert.Kernel.Gen.facts, Cert.KernelIdeal.Gen.facts, Cert.ReferenceIdeal.Gen.facts, Cert.Pre_finite_inputs.Gen.facts,
  frame_tiled, frame_tiled_ideal, frame_reference, preserves, algebraic⟩

end Cert.Proof

end
